-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x1024 : Shape := ⟨2, ![1024, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S512x1024 .f32) (main_arg1 : FVec F S1024x1024 .f32) (main_arg2 : FVec F S1024x1024 .f32) (main_arg3 : FVec F S1024x1024 .f32) (main_arg4 : FVec F S1024x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S512x1024 : Shape := ⟨2, ![512, 1024]⟩
abbrev S1024x1024 : Shape := ⟨2, ![1024, 1024]⟩
abbrev S128x1024 : Shape := ⟨2, ![128, 1024]⟩
abbrev S256x1024 : Shape := ⟨2, ![256, 1024]⟩
abbrev S128x256 : Shape := ⟨2, ![128, 256]⟩

abbrev nBuf : Space → Nat
  | .hbm => 6
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S128x256, .f32⟩
  | .local _ .vmem, ⟨11, _⟩ => ⟨S128x256, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S128x256_S128x256_0_0 : ∀ a, (![0, 0] : Fin 2 → Nat) a + S128x256.size a ≤ S128x256.size a
  h_S128x256 : 0 < S128x256.numel
  dot_S128x1024_S256x1024_S128x256_1_1_0_0_n_n_wf : DotDims.WF S128x1024 S256x1024 S128x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S1024x1024.size a
  hwx0_1 : ∀ i : grid0.Coords, EltTy.bits .f32 = 32 ∨ (Rect.block (s := S1024x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S1024x1024.size a
  hwx0_2 : ∀ i : grid0.Coords, EltTy.bits .f32 = 32 ∨ (Rect.block (s := S1024x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S1024x1024.size a
  hwx0_3 : ∀ i : grid0.Coords, EltTy.bits .f32 = 32 ∨ (Rect.block (s := S1024x1024) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S1024x1024.size a
  hwx0_4 : ∀ i : grid0.Coords, EltTy.bits .f32 = 32 ∨ (Rect.block (s := S1024x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S512x1024.size a
  hwx0_5 : ∀ i : grid0.Coords, EltTy.bits .f32 = 32 ∨ (Rect.block (s := S512x1024) S128x256.size (cc0_transform_5 i) (hinb0_5 i)).WholeWords (EltTy.packing .f32)

variable [Facts₀]

def dot_S128x1024_S256x1024_S128x256_1_1_0_0_n_n : DotDims S128x1024 S256x1024 S128x256 where
  lhsContracting := [1]
  rhsContracting := [1]
  lhsNonContracting := [0]
  rhsNonContracting := [0]
  lhsBatch := []
  rhsBatch := []
  wf := dot_S128x1024_S256x1024_S128x256_1_1_0_0_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024x1024 : Shape := ⟨2, ![1024, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S512x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]

class Facts₀ : Prop where
  bcast_S_S512x1024 : S_.BroadcastsInDim S512x1024 (![] : Fin 0 → Fin S512x1024.rank)
  dot_S512x1024_S1024x1024_S512x1024_1_1_0_0_n_n_wf : DotDims.WF S512x1024 S1024x1024 S512x1024 [1] [1] [0] [0] [] []

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

class Facts : Prop extends Facts₀ where

variable [Facts]
-- ==== Proof.Bernstein.lean ====
/-
  A cubic Bernstein synapse on the extended reals.

  A spike x has the spline parameter t = min 1 (max 0 |x|) and its complement s = 1 - t. The four cubic Bernstein
  weights of t, each multiplied by the spike itself, are s³·x, 3s²t·x, 3st²·x and t³·x. The synapse's output at
  (batch row p, output feature q) is the sum over the input features k of these four weighted spikes against the four
  control-point matrices' entries at (q, k): four row-by-row products, added from the left.

  The products inside a weight can be grouped in more than one way (3·(s·s)·t against ((3·s)·s)·t, (3·s)·(t·t) against
  ((3·s)·t)·t). Multiplication of extended reals is associative, so every grouping is the same weight; the two
  regroupings needed are stated here. Nothing here needs the entries to be finite.
-/
import Idealize.ShloMosaic.Lib.ValueIdx
import Idealize.ShloMosaic.PureOps.Ideal

noncomputable section

namespace Cert.Bernstein

open Idealize.ShloMosaic Idealize.ShloMosaic.ValueIdx

/-- The spline parameter of a spike: its magnitude clamped into [0, 1]. -/
def knot (x : Ideal .f32) : Ideal .f32 :=
  min (Ideal.ofBits .f32 0x3F800000#32) (max (Ideal.ofBits .f32 0x00000000#32) (FloatOps.absf (F := Ideal) (φ := .f32) x))

/-- The complement 1 - t of the spline parameter. -/
def rest (x : Ideal .f32) : Ideal .f32 := Ideal.ofBits .f32 0x3F800000#32 - knot x

/-- s³ times the spike, the products taken from the left. -/
def w0 (x : Ideal .f32) : Ideal .f32 := rest x * rest x * rest x * x
/-- 3s²t times the spike, the products taken from the left. -/
def w1 (x : Ideal .f32) : Ideal .f32 := Ideal.ofBits .f32 0x40400000#32 * rest x * rest x * knot x * x
/-- 3st² times the spike, the products taken from the left. -/
def w2 (x : Ideal .f32) : Ideal .f32 := Ideal.ofBits .f32 0x40400000#32 * rest x * knot x * knot x * x
/-- t³ times the spike, the products taken from the left. -/
def w3 (x : Ideal .f32) : Ideal .f32 := knot x * knot x * knot x * x

/-- The second weight with s² formed before the factor 3 meets it: the same number, by associativity. -/
theorem w1_square_first (x : Ideal .f32) :
    Ideal.ofBits .f32 0x40400000#32 * (rest x * rest x) * knot x * x = w1 x := by
  unfold w1
  rw [← mul_assoc (Ideal.ofBits .f32 0x40400000#32) (rest x) (rest x)]

/-- The third weight with t² formed before 3s meets it: the same number, by associativity. -/
theorem w2_square_first (x : Ideal .f32) :
    Ideal.ofBits .f32 0x40400000#32 * rest x * (knot x * knot x) * x = w2 x := by
  unfold w2
  rw [← mul_assoc (Ideal.ofBits .f32 0x40400000#32 * rest x) (knot x) (knot x)]

/-- One entry of the synapse: row p of the spikes against row q of each control-point matrix, the four weighted sums
    over the input features added from the left. -/
def entry {A B K : ℕ} (x : (⟨2, ![A, K]⟩ : Shape).Idx → Ideal .f32) (c0 c1 c2 c3 : (⟨2, ![B, K]⟩ : Shape).Idx → Ideal .f32)
    (p : Fin A) (q : Fin B) : Ideal .f32 :=
  (∑ k : Fin K, w0 (x (ix2 p k)) * c0 (ix2 q k)) + (∑ k : Fin K, w1 (x (ix2 p k)) * c1 (ix2 q k))
    + (∑ k : Fin K, w2 (x (ix2 p k)) * c2 (ix2 q k)) + (∑ k : Fin K, w3 (x (ix2 p k)) * c3 (ix2 q k))

/-- The whole output: 512 batch rows by 1024 output features over 1024 input features. -/
def synapse (x : (⟨2, ![512, 1024]⟩ : Shape).Idx → Ideal .f32) (c0 c1 c2 c3 : (⟨2, ![1024, 1024]⟩ : Shape).Idx → Ideal .f32) :
    (⟨2, ![512, 1024]⟩ : Shape).Idx → Ideal .f32 :=
  fun i => entry x c0 c1 c2 c3 (i 0) (i 1)

/-- The output at an index given by its coordinates. -/
theorem synapse_apply (x : (⟨2, ![512, 1024]⟩ : Shape).Idx → Ideal .f32) (c0 c1 c2 c3 : (⟨2, ![1024, 1024]⟩ : Shape).Idx → Ideal .f32)
    (p : Fin 512) (q : Fin 1024) : synapse x c0 c1 c2 c3 (ix2 p q) = entry x c0 c1 c2 c3 p q := rfl

end Cert.Bernstein

end
-- ==== Proof.ReferenceSynapse.lean ====
/-
  The reference computes the Bernstein synapse.

  Its program clamps |x| into [0, 1], forms s = 1 - t, multiplies out the four weights from the left, contracts each
  against one control-point matrix along the input features (axis 1 of both operands) and adds the four products from
  the left. Read one operation at a time at an index (p, q), that is `Bernstein.entry` at (p, q) term for term.
-/
import proofs.«161736_j15831249453623_1_alg».proof.Proof.Gen.ReferenceIdeal.Read
import proofs.«161736_j15831249453623_1_alg».proof.Proof.Bernstein

noncomputable section

namespace Cert.ReferenceIdeal.Synapse

open Cert.ReferenceIdeal Cert.ReferenceIdeal.Read Idealize.ShloMosaic Idealize.ShloMosaic.ValueIdx Cert.Bernstein

variable (x : (⟨S512x1024, .f32⟩ : BufTy).Contents (Elt Ideal)) (j : S512x1024.Idx)

/-- The clamped magnitude the reference forms is the spline parameter. -/
theorem knot_eq : val_main_v1 (F := Ideal) x j = knot (x j) := by
  rw [val_main_v1_apply, val_main_call0_v4_apply, val_main_call0_v3_apply, val_main_cst_0_apply, val_main_call0_v2_apply,
    val_main_call0_v1_apply, val_main_call0_v0_apply, val_main_cst_apply, val_main_v0_apply]
  rfl

/-- One minus it is the complement. -/
theorem rest_eq : val_main_v3 (F := Ideal) x j = rest (x j) := by
  rw [val_main_v3_apply, val_main_v2_apply, val_main_cst_1_apply, knot_eq]
  rfl

/-- The first weighted spike. -/
theorem w0_eq : val_main_v6 (F := Ideal) x j = w0 (x j) := by
  rw [val_main_v6_apply, val_main_v5_apply, val_main_v4_apply, rest_eq]
  rfl

/-- The second weighted spike. -/
theorem w1_eq : val_main_v11 (F := Ideal) x j = w1 (x j) := by
  rw [val_main_v11_apply, val_main_v10_apply, val_main_v9_apply, val_main_v8_apply, val_main_v7_apply, val_main_cst_2_apply,
    rest_eq, knot_eq]
  rfl

/-- The third weighted spike. -/
theorem w2_eq : val_main_v16 (F := Ideal) x j = w2 (x j) := by
  rw [val_main_v16_apply, val_main_v15_apply, val_main_v14_apply, val_main_v13_apply, val_main_v12_apply, val_main_cst_3_apply,
    rest_eq, knot_eq]
  rfl

/-- The fourth weighted spike. -/
theorem w3_eq : val_main_v19 (F := Ideal) x j = w3 (x j) := by
  rw [val_main_v19_apply, val_main_v18_apply, val_main_v17_apply, knot_eq]
  rfl

/-- The reference's result is the synapse of its five arguments. -/
theorem result_eq (x : (⟨S512x1024, .f32⟩ : BufTy).Contents (Elt Ideal)) (c0 c1 c2 c3 : (⟨S1024x1024, .f32⟩ : BufTy).Contents (Elt Ideal)) :
    val_main_v26 (F := Ideal) x c0 c1 c2 c3 = synapse x c0 c1 c2 c3 := by
  funext i
  obtain ⟨p, q, rfl⟩ : ∃ (p : Fin 512) (q : Fin 1024), i = ix2 p q := ⟨i 0, i 1, eq_ix2 i⟩
  have l20 : ∀ k, lidx_main_v20 (ix2 p q) k = ix2 p k := fun k => funext fun a => Fin.ext (by match a with | ⟨0, _⟩ => rfl | ⟨1, _⟩ => rfl)
  have r20 : ∀ k, ridx_main_v20 (ix2 p q) k = ix2 q k := fun k => funext fun a => Fin.ext (by match a with | ⟨0, _⟩ => rfl | ⟨1, _⟩ => rfl)
  have l21 : ∀ k, lidx_main_v21 (ix2 p q) k = ix2 p k := fun k => funext fun a => Fin.ext (by match a with | ⟨0, _⟩ => rfl | ⟨1, _⟩ => rfl)
  have r21 : ∀ k, ridx_main_v21 (ix2 p q) k = ix2 q k := fun k => funext fun a => Fin.ext (by match a with | ⟨0, _⟩ => rfl | ⟨1, _⟩ => rfl)
  have l23 : ∀ k, lidx_main_v23 (ix2 p q) k = ix2 p k := fun k => funext fun a => Fin.ext (by match a with | ⟨0, _⟩ => rfl | ⟨1, _⟩ => rfl)
  have r23 : ∀ k, ridx_main_v23 (ix2 p q) k = ix2 q k := fun k => funext fun a => Fin.ext (by match a with | ⟨0, _⟩ => rfl | ⟨1, _⟩ => rfl)
  have l25 : ∀ k, lidx_main_v25 (ix2 p q) k = ix2 p k := fun k => funext fun a => Fin.ext (by match a with | ⟨0, _⟩ => rfl | ⟨1, _⟩ => rfl)
  have r25 : ∀ k, ridx_main_v25 (ix2 p q) k = ix2 q k := fun k => funext fun a => Fin.ext (by match a with | ⟨0, _⟩ => rfl | ⟨1, _⟩ => rfl)
  rw [val_main_v26_apply, val_main_v24_apply, val_main_v22_apply, val_main_v20_apply, val_main_v21_apply, val_main_v23_apply,
    val_main_v25_apply, synapse_apply]
  simp only [l20, r20, l21, r21, l23, r23, l25, r25, w0_eq, w1_eq, w2_eq, w3_eq]
  rfl

end Cert.ReferenceIdeal.Synapse

end
-- ==== Proof.LibMatmulRows.lean ====
/-
  A rank-2 matrix product whose contraction runs along the SECOND axis of both operands, read at an entry.

  `matmul_rows_rows`: a matrix unit's product of an [A, K] by a [B, K] matrix into a zero accumulator, contracting
  axis 1 of the left operand with axis 1 of the right one, read at (p, q), is ∑ k, L(p,k) · R(q,k): row p of the left
  operand times ROW q of the right one (a product with the transpose). Stated for any dimension record whose four index
  facts (the left index takes the output row and the contraction position, the right index the output column and the
  contraction position) are supplied.
-/
import Idealize.ShloMosaic.Lib.ValueIdx
import Idealize.ShloMosaic.Lib.Pipeline.Value
import Idealize.ShloMosaic.PureOps.Ideal.Laws

noncomputable section

namespace Cert.MatmulRows

open Idealize.ShloMosaic Idealize.ShloMosaic.ValueIdx

/-- A matrix product into a zero accumulator that contracts the second axis of both operands, read at (p, q): the sum
    over the contracted axis of the left operand's row p times the right operand's row q. -/
theorem matmul_rows_rows {A K B : ℕ} {φ₁ φ₂ : FTy}
    (d : DotDims ⟨2, ![A, K]⟩ ⟨2, ![B, K]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (i 1).val)
    (hr1 : ∀ (i : (⟨2, ![A, B]⟩ : Shape).Idx) (q : d.contr.Idx), (d.rhsIdx i q 1).val = (q ⟨0, by omega⟩).val)
    (prec : Option ContractPrecision) (L : FVec Ideal ⟨2, ![A, K]⟩ φ₁) (R : FVec Ideal ⟨2, ![B, K]⟩ φ₂) (p : Fin A) (q : Fin B) :
    FloatOps.matmul d prec L R (constant ⟨2, ![A, B]⟩ .f32 0x00000000#32) (ix2 p q)
      = ∑ k : Fin K, L (ix2 p k) * R (ix2 q k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 q k := funext fun a => Fin.ext (by
    match a with
    | ⟨0, _⟩ => exact hr0 _ _
    | ⟨1, _⟩ => exact (hr1 _ _).trans hk)
  rw [el, er]

end Cert.MatmulRows

end
-- ==== Proof.BlockSynapse.lean ====
/-
  What the kernel body leaves in its output block is the Bernstein synapse of its input blocks.

  The body loads a [128, 1024] block of spikes and four [256, 1024] blocks of control points, forms the four weighted
  spikes (with s² and t² formed first in the second and third), rounds the operands of each product to a narrower
  format (the identity on extended reals), multiplies each pair contracting the input features (axis 1 of both
  operands) into a zero accumulator, and adds the four products from the left. At (p, q) of the block that is
  `Bernstein.entry` of the blocks: the matrix products are row-by-row sums, and the two regrouped weights are the same
  numbers by associativity.
-/
import proofs.«161736_j15831249453623_1_alg».proof.Proof.Gen.KernelIdeal.Frame
import proofs.«161736_j15831249453623_1_alg».proof.Proof.Bernstein
import proofs.«161736_j15831249453623_1_alg».proof.Proof.LibMatmulRows

noncomputable section

namespace Cert.KernelIdeal.Synapse

open Cert.KernelIdeal Cert.KernelIdeal.Gen Idealize.ShloMosaic Idealize.ShloMosaic.ValueIdx Cert.Bernstein

/-- The left index of the body's matrix products takes the output row on axis 0 … -/
theorem lhs0 (i : S128x256.Idx) (q : dot_S128x1024_S256x1024_S128x256_1_1_0_0_n_n.contr.Idx) :
    (dot_S128x1024_S256x1024_S128x256_1_1_0_0_n_n.lhsIdx i q 0).val = (i 0).val := by
  unfold DotDims.lhsIdx
  rw [dif_neg (show ¬(0 : Fin S128x1024.rank) ∈ dot_S128x1024_S256x1024_S128x256_1_1_0_0_n_n.lhsBatch by decide),
    dif_pos (show (0 : Fin S128x1024.rank) ∈ dot_S128x1024_S256x1024_S128x256_1_1_0_0_n_n.lhsNonContracting by decide)]
  rfl
/-- … and the contraction position on axis 1. -/
theorem lhs1 (i : S128x256.Idx) (q : dot_S128x1024_S256x1024_S128x256_1_1_0_0_n_n.contr.Idx) :
    (dot_S128x1024_S256x1024_S128x256_1_1_0_0_n_n.lhsIdx i q 1).val = (q ⟨0, by decide⟩).val :=
  dot_S128x1024_S256x1024_S128x256_1_1_0_0_n_n.lhsIdx_val_of_single rfl i q
/-- The right index takes the output column on axis 0 … -/
theorem rhs0 (i : S128x256.Idx) (q : dot_S128x1024_S256x1024_S128x256_1_1_0_0_n_n.contr.Idx) :
    (dot_S128x1024_S256x1024_S128x256_1_1_0_0_n_n.rhsIdx i q 0).val = (i 1).val := by
  unfold DotDims.rhsIdx
  rw [dif_neg (show ¬(0 : Fin S256x1024.rank) ∈ dot_S128x1024_S256x1024_S128x256_1_1_0_0_n_n.rhsBatch by decide),
    dif_pos (show (0 : Fin S256x1024.rank) ∈ dot_S128x1024_S256x1024_S128x256_1_1_0_0_n_n.rhsNonContracting by decide)]
  rfl
/-- … and the contraction position on axis 1. -/
theorem rhs1 (i : S128x256.Idx) (q : dot_S128x1024_S256x1024_S128x256_1_1_0_0_n_n.contr.Idx) :
    (dot_S128x1024_S256x1024_S128x256_1_1_0_0_n_n.rhsIdx i q 1).val = (q ⟨0, by decide⟩).val :=
  dot_S128x1024_S256x1024_S128x256_1_1_0_0_n_n.rhsIdx_val_of_single rfl i q

/-- One of the body's four matrix products at (p, q): row p of the left operand against row q of the right one. -/
theorem product_apply (L : FVec Ideal S128x1024 .bf16) (R : FVec Ideal S256x1024 .bf16) (p : Fin 128) (q : Fin 256) :
    matmul dot_S128x1024_S256x1024_S128x256_1_1_0_0_n_n none L R (constant S128x256 .f32 0x00000000#32) (ix2 p q)
      = ∑ k : Fin 1024, L (ix2 p k) * R (ix2 q k) :=
  Cert.MatmulRows.matmul_rows_rows dot_S128x1024_S256x1024_S128x256_1_1_0_0_n_n rfl rfl lhs0 lhs1 rhs0 rhs1 none L R p q

/-- The value the body stores, at (p, q) of the output block: the synapse's entry of the five input blocks. -/
theorem stored_apply (x0 : Vec Ideal S128x1024 .f32) (x1 x2 x3 x4 : Vec Ideal S256x1024 .f32) (p : Fin 128) (q : Fin 256) :
    k0_pay1 (k0_pay4 x0) (k0_pay5 x4) (k0_pay6 x0 x1 x2 x3) (constant S128x256 .f32 0x00000000#32) (ix2 p q)
      = entry x0 x1 x2 x3 x4 p q := by
  unfold k0_pay1 k0_pay6 entry
  refine congrArg₂ (· + ·) (congrArg₂ (· + ·) (congrArg₂ (· + ·) ?_ ?_) ?_) ?_
  · refine (product_apply _ _ p q).trans (Finset.sum_congr rfl fun k _ => ?_)
    rfl
  · refine (product_apply _ _ p q).trans (Finset.sum_congr rfl fun k _ => ?_)
    exact congrArg (· * x2 (ix2 q k)) (w1_square_first (x0 (ix2 p k)))
  · refine (product_apply _ _ p q).trans (Finset.sum_congr rfl fun k _ => ?_)
    exact congrArg (· * x3 (ix2 q k)) (w2_square_first (x0 (ix2 p k)))
  · refine (product_apply _ _ p q).trans (Finset.sum_congr rfl fun k _ => ?_)
    rfl

end Cert.KernelIdeal.Synapse

end
-- ==== Proof.TiledSynapse.lean ====
/-
  From blocks to the whole array: the kernel's output array is the Bernstein synapse of its argument arrays.

  The grid has 4 × 4 points. At a point with output block index (bi, bj) the body sees rows bi·128 … bi·128+127 of the
  spikes and rows bj·256 … bj·256+255 of each control-point matrix, all 1024 input features of each, and writes the
  [128, 256] block of the output at rows bi·128 …, columns bj·256 …. An entry of the synapse depends only on one row of
  the spikes and one row of each control-point matrix, so the block the body computes from its input blocks is that
  block of the synapse of the whole arrays. The 16 output blocks tile the [512, 1024] array: entry (r, s) lies in the
  block with index (r / 128, s / 256).
-/
import proofs.«161736_j15831249453623_1_alg».proof.Proof.Gen.KernelIdeal.Value
import proofs.«161736_j15831249453623_1_alg».proof.Proof.BlockSynapse

noncomputable section

namespace Cert.KernelIdeal.Tiled

open Cert.KernelIdeal Cert.KernelIdeal.Gen Idealize.ShloMosaic Idealize.ShloMosaic.TcCoe Idealize.SL.Sem
open Idealize.ShloMosaic.ValueIdx Cert.Bernstein
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Row p of batch block bi. -/
def row (bi : Fin 4) (p : Fin 128) : Fin 512 := ⟨bi.val * 128 + p.val, by omega⟩
/-- Row q of output-feature block bj. -/
def col (bj : Fin 4) (q : Fin 256) : Fin 1024 := ⟨bj.val * 256 + q.val, by omega⟩

/-- The index maps over the 16 grid points: the spikes' block follows the output's row block, each control-point
    matrix's block follows the output's column block, every input block spans all input features, and the output's
    block indices stay below 4. -/
theorem index_maps : ∀ t : Fin cfg0.N,
    win0_0.index t (0 : Fin 2) = win0_5.index t (0 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (1 : Fin 2) ∧ win0_3.index t (1 : Fin 2) = 0
    ∧ win0_4.index t (0 : Fin 2) = win0_5.index t (1 : Fin 2) ∧ win0_4.index t (1 : Fin 2) = 0
    ∧ win0_5.index t (0 : Fin 2) ≤ 3 ∧ win0_5.index t (1 : Fin 2) ≤ 3 :=
  (by decide +kernel : ∀ t : Fin grid0.N, _)

/-- Every output block index is some point's. -/
theorem index_onto : ∀ (q0 : Fin 4) (q1 : Fin 4), ∃ t : Fin cfg0.N, win0_5.index t = ![q0.val, q1.val] :=
  (by decide +kernel : ∀ (q0 : Fin 4) (q1 : Fin 4), ∃ t : Fin grid0.N, win0_5.index t = ![q0.val, q1.val])

/-- The block computed from input blocks that are the stated rows of whole arrays is that block of the synapse of
    the whole arrays: an entry reads one row of the spikes and one row of each control-point matrix. -/
theorem block_of_arrays (X : S512x1024.Idx → Ideal .f32) (C0 C1 C2 C3 : S1024x1024.Idx → Ideal .f32)
    (x0 : Vec Ideal S128x1024 .f32) (x1 x2 x3 x4 : Vec Ideal S256x1024 .f32) (bi bj : Fin 4)
    (h0 : ∀ (p : Fin 128) (k : Fin 1024), x0 (ix2 p k) = X (ix2 (row bi p) k))
    (h1 : ∀ (q : Fin 256) (k : Fin 1024), x1 (ix2 q k) = C0 (ix2 (col bj q) k))
    (h2 : ∀ (q : Fin 256) (k : Fin 1024), x2 (ix2 q k) = C1 (ix2 (col bj q) k))
    (h3 : ∀ (q : Fin 256) (k : Fin 1024), x3 (ix2 q k) = C2 (ix2 (col bj q) k))
    (h4 : ∀ (q : Fin 256) (k : Fin 1024), x4 (ix2 q k) = C3 (ix2 (col bj q) k))
    (p : Fin 128) (q : Fin 256) :
    k0_pay1 (k0_pay4 x0) (k0_pay5 x4) (k0_pay6 x0 x1 x2 x3) (constant S128x256 .f32 0x00000000#32) (ix2 p q)
      = synapse X C0 C1 C2 C3 (ix2 (row bi p) (col bj q)) := by
  rw [Cert.KernelIdeal.Synapse.stored_apply, synapse_apply]
  unfold entry
  simp only [h0, h1, h2, h3, h4]

/-- The block a grid point writes back to the output array is that point's block of the synapse of the argument
    arrays as they stand when the kernel is launched. -/
theorem flushed_eq (c : Dev nD) (t : Fin cfg0.N) :
    (dats m 0 c).flushed 5 t = ((cfg0.win 5).blk t).view.read (Elt Ideal)
      (synapse (V m c main_arg0) (V m c main_arg1) (V m c main_arg2) (V m c main_arg3) (V m c main_arg4)) := by
  show (cfg0.win 5).cut (grid0.coords t) ((dats m 0 c).after 5 t) = _
  rw [after0_5]
  unfold out0_5
  rw [View.canon_unit_zero origin]
  simp only [View.ld_unit_zero (S := S128x1024) origin, View.ld_unit_zero (S := S256x1024) origin]
  obtain ⟨e00, e01, e10, e11, e20, e21, e30, e31, e40, e41, hb0, hb1⟩ := index_maps t
  funext j
  have hp : (j 0).val < 128 := (j 0).isLt
  have hq : (j 1).val < 256 := (j 1).isLt
  have ej : (cfg0.win 5).xinj (grid0.coords t) j = ix2 (⟨(j 0).val, hp⟩ : Fin 128) (⟨(j 1).val, hq⟩ : Fin 256) :=
    funext fun a => Fin.ext (by match a with | ⟨0, _⟩ => rfl | ⟨1, _⟩ => rfl)
  have eo : ((cfg0.win 5).blk t).view.emb j
      = ix2 (row ⟨win0_5.index t (0 : Fin 2), by omega⟩ ⟨(j 0).val, hp⟩) (col ⟨win0_5.index t (1 : Fin 2), by omega⟩ ⟨(j 1).val, hq⟩) :=
    funext fun a => Fin.ext (by
      match a with
      | ⟨0, _⟩ => show win0_5.index t (0 : Fin 2) * 128 + 1 * (j 0).val = win0_5.index t (0 : Fin 2) * 128 + (j 0).val; omega
      | ⟨1, _⟩ => show win0_5.index t (1 : Fin 2) * 256 + 1 * (j 1).val = win0_5.index t (1 : Fin 2) * 256 + (j 1).val; omega)
  have h0 : ∀ (p : Fin 128) (k : Fin 1024), iblk m c 0 t (ix2 p k)
      = V m c main_arg0 (ix2 (row ⟨win0_5.index t (0 : Fin 2), by omega⟩ p) k) := fun p k => by
    show V m c main_arg0 (((cfg0.win 0).blk t).view.emb (ix2 p k)) = _
    refine congrArg (fun y : S512x1024.Idx => V m c main_arg0 y) (funext fun a => Fin.ext ?_)
    match a with
    | ⟨0, _⟩ => show win0_0.index t (0 : Fin 2) * 128 + 1 * p.val = win0_5.index t (0 : Fin 2) * 128 + p.val; omega
    | ⟨1, _⟩ => show win0_0.index t (1 : Fin 2) * 1024 + 1 * k.val = k.val; omega
  have h1 : ∀ (q : Fin 256) (k : Fin 1024), iblk m c 1 t (ix2 q k)
      = V m c main_arg1 (ix2 (col ⟨win0_5.index t (1 : Fin 2), by omega⟩ q) k) := fun q k => by
    show V m c main_arg1 (((cfg0.win 1).blk t).view.emb (ix2 q k)) = _
    refine congrArg (fun y : S1024x1024.Idx => V m c main_arg1 y) (funext fun a => Fin.ext ?_)
    match a with
    | ⟨0, _⟩ => show win0_1.index t (0 : Fin 2) * 256 + 1 * q.val = win0_5.index t (1 : Fin 2) * 256 + q.val; omega
    | ⟨1, _⟩ => show win0_1.index t (1 : Fin 2) * 1024 + 1 * k.val = k.val; omega
  have h2 : ∀ (q : Fin 256) (k : Fin 1024), iblk m c 2 t (ix2 q k)
      = V m c main_arg2 (ix2 (col ⟨win0_5.index t (1 : Fin 2), by omega⟩ q) k) := fun q k => by
    show V m c main_arg2 (((cfg0.win 2).blk t).view.emb (ix2 q k)) = _
    refine congrArg (fun y : S1024x1024.Idx => V m c main_arg2 y) (funext fun a => Fin.ext ?_)
    match a with
    | ⟨0, _⟩ => show win0_2.index t (0 : Fin 2) * 256 + 1 * q.val = win0_5.index t (1 : Fin 2) * 256 + q.val; omega
    | ⟨1, _⟩ => show win0_2.index t (1 : Fin 2) * 1024 + 1 * k.val = k.val; omega
  have h3 : ∀ (q : Fin 256) (k : Fin 1024), iblk m c 3 t (ix2 q k)
      = V m c main_arg3 (ix2 (col ⟨win0_5.index t (1 : Fin 2), by omega⟩ q) k) := fun q k => by
    show V m c main_arg3 (((cfg0.win 3).blk t).view.emb (ix2 q k)) = _
    refine congrArg (fun y : S1024x1024.Idx => V m c main_arg3 y) (funext fun a => Fin.ext ?_)
    match a with
    | ⟨0, _⟩ => show win0_3.index t (0 : Fin 2) * 256 + 1 * q.val = win0_5.index t (1 : Fin 2) * 256 + q.val; omega
    | ⟨1, _⟩ => show win0_3.index t (1 : Fin 2) * 1024 + 1 * k.val = k.val; omega
  have h4 : ∀ (q : Fin 256) (k : Fin 1024), iblk m c 4 t (ix2 q k)
      = V m c main_arg4 (ix2 (col ⟨win0_5.index t (1 : Fin 2), by omega⟩ q) k) := fun q k => by
    show V m c main_arg4 (((cfg0.win 4).blk t).view.emb (ix2 q k)) = _
    refine congrArg (fun y : S1024x1024.Idx => V m c main_arg4 y) (funext fun a => Fin.ext ?_)
    match a with
    | ⟨0, _⟩ => show win0_4.index t (0 : Fin 2) * 256 + 1 * q.val = win0_5.index t (1 : Fin 2) * 256 + q.val; omega
    | ⟨1, _⟩ => show win0_4.index t (1 : Fin 2) * 1024 + 1 * k.val = k.val; omega
  refine (congrArg (k0_pay1 (k0_pay4 (iblk m c 0 t)) (k0_pay5 (iblk m c 4 t))
      (k0_pay6 (iblk m c 0 t) (iblk m c 1 t) (iblk m c 2 t) (iblk m c 3 t)) (constant S128x256 .f32 0x00000000#32)) ej).trans ?_
  refine (block_of_arrays (V m c main_arg0) (V m c main_arg1) (V m c main_arg2) (V m c main_arg3) (V m c main_arg4)
      (iblk m c 0 t) (iblk m c 1 t) (iblk m c 2 t) (iblk m c 3 t) (iblk m c 4 t)
      ⟨win0_5.index t (0 : Fin 2), by omega⟩ ⟨win0_5.index t (1 : Fin 2), by omega⟩ h0 h1 h2 h3 h4
      ⟨(j 0).val, hp⟩ ⟨(j 1).val, hq⟩).trans ?_
  exact congrArg (synapse (V m c main_arg0) (V m c main_arg1) (V m c main_arg2) (V m c main_arg3) (V m c main_arg4)) eo.symm

/-- An index of the array is in point `t`'s block iff each coordinate is in the block's range on its axis. -/
theorem mem_block (t : Fin cfg0.N) (i : S512x1024.Idx) :
    i ∈ ((cfg0.win 5).blk t).view.set ↔ ∀ a : Fin 2, win0_5.index t a * S128x256.size a ≤ (i a).val
      ∧ (i a).val < win0_5.index t a * S128x256.size a + S128x256.size a := by
  show i ∈ ((View.whole main_v0).slice (win0_5.rect t)).set ↔ _
  rw [View.set_slice_whole, Rect.mem_set_unit]
  exact Iff.rfl

/-- The 16 blocks cover the array: entry (r, s) lies in the block with index (r / 128, s / 256). -/
theorem covered (i : S512x1024.Idx) : ∃ t : Fin cfg0.N, (cfg0.win 5).flush t = true ∧ i ∈ ((cfg0.win 5).blk t).view.set := by
  have hi0 : (i 0).val < 512 := (i 0).isLt
  have hi1 : (i 1).val < 1024 := (i 1).isLt
  obtain ⟨t, ht⟩ := index_onto ⟨(i 0).val / 128, by omega⟩ ⟨(i 1).val / 256, by omega⟩
  have q0 : win0_5.index t (0 : Fin 2) = (i 0).val / 128 := congrFun ht 0
  have q1 : win0_5.index t (1 : Fin 2) = (i 1).val / 256 := congrFun ht 1
  refine ⟨t, flush0_5 t, ?_⟩
  rw [mem_block]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 256 ≤ (i 1).val ∧ (i 1).val < win0_5.index t (1 : Fin 2) * 256 + 256; omega

/-- Since every point writes its block of the synapse and the blocks cover the array, the output array after the
    last point is the synapse of the argument arrays. -/
theorem final (c : Dev nD) : (dats m 0 c).arrAt 5 cfg0.N
    = synapse (V m c main_arg0) (V m c main_arg1) (V m c main_arg2) (V m c main_arg3) (V m c main_arg4) :=
  (dats m 0 c).arrAt_eq_of_cover 5 _ (fun t _ => flushed_eq m c t) (fun i => covered i)

/-- The kernel's run: every weakly fair execution ends with the result array at the synapse of the argument arrays
    as launched, the arguments unchanged. -/
theorem run : θ_run defs (onTc (τ := τ) (main (F := Ideal))) ⟨m, fun _ => 0, ρ⟩ fun r => ∀ c : Dev nD,
      r.2.mem ((c : Thread nD τ).loc main_v0) = synapse (m ((c : Thread nD τ).loc main_arg0)) (m ((c : Thread nD τ).loc main_arg1))
          (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Tiled

end
-- ==== Proof.lean ====
/-
  A cubic Bernstein synapse: the kernel against its jnp reference, over the extended reals.

  Both programs take spikes x [512, 1024] and four control-point matrices cp0 … cp3 [1024, 1024]. With t = min 1 (max 0 |x|)
  and s = 1 - t they form the four weighted spikes s³·x, 3s²t·x, 3st²·x, t³·x, contract each against one control-point
  matrix over the input features and add the four products from the left:
      out(b, o) = Σ_i s³x(b,i)·cp0(o,i) + Σ_i 3s²t·x(b,i)·cp1(o,i) + Σ_i 3st²·x(b,i)·cp2(o,i) + Σ_i t³x(b,i)·cp3(o,i).
  The kernel computes this one [128, 256] output block per grid point from a [128, 1024] block of spikes and a
  [256, 1024] block of each matrix, rounding the operands of each product to a narrower format (the identity on extended
  reals); the reference computes it on the whole arrays. They differ only in how two of the weights are grouped
  (3·(s·s)·t against ((3·s)·s)·t, (3·s)·(t·t) against ((3·s)·t)·t), which associativity of the product on the extended
  reals removes, and in the tiling, which does not matter because an entry reads one row of the spikes and one row of
  each matrix. No entry needs to be finite for any of this, so the precondition is never opened.

  Proof/Bernstein.lean states the function; Proof/ReferenceSynapse.lean reads the reference's run as that function;
  Proof/BlockSynapse.lean reads the value the kernel body stores at an entry of its block; Proof/TiledSynapse.lean goes
  from the blocks to the whole array and the kernel's run. Here the five claims are assembled. The three frames are
  the generated ones (the reference's is its generated run with the result dropped); the idealization rewrote
  nothing, so there is nothing to preserve.
-/
import proofs.«161736_j15831249453623_1_alg».proof.Defs
import proofs.«161736_j15831249453623_1_alg».proof.Proof.Gen.Kernel
import proofs.«161736_j15831249453623_1_alg».proof.Proof.Gen.Kernel.Skeleton
import proofs.«161736_j15831249453623_1_alg».proof.Proof.Gen.Kernel.Launch
import proofs.«161736_j15831249453623_1_alg».proof.Proof.Gen.Kernel.Points
import proofs.«161736_j15831249453623_1_alg».proof.Proof.Gen.Kernel.Frame
import proofs.«161736_j15831249453623_1_alg».proof.Proof.Gen.KernelIdeal
import proofs.«161736_j15831249453623_1_alg».proof.Proof.Gen.KernelIdeal.Skeleton
import proofs.«161736_j15831249453623_1_alg».proof.Proof.Gen.KernelIdeal.Launch
import proofs.«161736_j15831249453623_1_alg».proof.Proof.Gen.KernelIdeal.Points
import proofs.«161736_j15831249453623_1_alg».proof.Proof.Gen.KernelIdeal.Frame
import proofs.«161736_j15831249453623_1_alg».proof.Proof.Gen.ReferenceIdeal
import proofs.«161736_j15831249453623_1_alg».proof.Proof.Gen.Pre_finite_inputs
import proofs.«161736_j15831249453623_1_alg».proof.Proof.Gen.KernelIdeal.Value
import proofs.«161736_j15831249453623_1_alg».proof.Proof.Gen.ReferenceIdeal.Run
import proofs.«161736_j15831249453623_1_alg».proof.Proof.Gen.ReferenceIdeal.Read
import proofs.«161736_j15831249453623_1_alg».proof.Proof.ReferenceSynapse
import proofs.«161736_j15831249453623_1_alg».proof.Proof.TiledSynapse
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at the Bernstein
    synapse of those arguments: the kernel block by block, the reference operation by operation. -/
theorem algebraic : Cert.algebraic_KernelIdeal_ReferenceIdeal := by
  intro m ρ m' ρ' _ hagree
  refine ⟨_, Cert.KernelIdeal.Tiled.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.Synapse.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
